-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S8x4096 .f32) (main_arg3 : FVec F S4096x8 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S8192x4096 : Shape := ⟨2, ![8192, 4096]⟩
abbrev S8192x8 : Shape := ⟨2, ![8192, 8]⟩
abbrev S2048x512 : Shape := ⟨2, ![2048, 512]⟩
abbrev S1024x512 : Shape := ⟨2, ![1024, 512]⟩
abbrev S2048x8 : Shape := ⟨2, ![2048, 8]⟩
abbrev S1024x8 : Shape := ⟨2, ![1024, 8]⟩
abbrev S2048x1024 : Shape := ⟨2, ![2048, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S8x4096, .bf16⟩
  | .hbm, ⟨8, _⟩ => ⟨S4096x8, .bf16⟩
  | .hbm, ⟨9, _⟩ => ⟨S8192x8, .f32⟩
  | .hbm, ⟨10, _⟩ => ⟨S8192x8, .bf16⟩
  | .hbm, ⟨11, _⟩ => ⟨S8192x4096, .f32⟩
  | .hbm, ⟨12, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x8, .bf16⟩
  | .local _ .vmem, ⟨5, _⟩ => ⟨S2048x8, .bf16⟩
  | .local _ .vmem, ⟨6, _⟩ => ⟨S1024x8, .bf16⟩
  | .local _ .vmem, ⟨7, _⟩ => ⟨S1024x8, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  shapeCasts_S8192x4096_S4x2048x4096 : S8192x4096.ShapeCasts S4x2048x4096
  dot_S8192x4096_S8x4096_S8192x8_1_1_0_0_n_n_wf : DotDims.WF S8192x4096 S8x4096 S8192x8 [1] [1] [0] [0] [] []
  dot_S2048x512_S1024x512_S2048x1024_1_1_0_0_n_n_wf : DotDims.WF S2048x512 S1024x512 S2048x1024 [1] [1] [0] [0] [] []
  dot_S2048x8_S1024x8_S2048x1024_1_1_0_0_n_n_wf : DotDims.WF S2048x8 S1024x8 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x8.size a ≤ S8192x8.size a
  hwx0_2 : ∀ i : grid0.Coords, EltTy.bits .bf16 = 32 ∨ (Rect.block (s := S8192x8) S2048x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .bf16 = 32 ∨ (Rect.block (s := S4096x8) S1024x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S8192x4096_S8x4096_S8192x8_1_1_0_0_n_n : DotDims S8192x4096 S8x4096 S8192x8 where
  lhsContracting := [1]
  rhsContracting := [1]
  lhsNonContracting := [0]
  rhsNonContracting := [0]
  lhsBatch := []
  rhsBatch := []
  wf := dot_S8192x4096_S8x4096_S8192x8_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x8_S1024x8_S2048x1024_1_1_0_0_n_n : DotDims S2048x8 S1024x8 S2048x1024 where
  lhsContracting := [1]
  rhsContracting := [1]
  lhsNonContracting := [0]
  rhsNonContracting := [0]
  lhsBatch := []
  rhsBatch := []
  wf := dot_S2048x8_S1024x8_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4x2048x8 : Shape := ⟨3, ![4, 2048, 8]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4x2048x4096, .f32⟩
  | .hbm, ⟨5, _⟩ => ⟨S4x2048x8, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.Spec.lean ====
/-
  The common value of the two programs, as one function of the four argument arrays, and the one law that joins the
  kernel's arrangement of the sums to the reference's.

  With `x : [4, 2048, 4096]`, `w : [4096, 4096]`, `a : [8, 4096]`, `b : [4096, 8]` the result at `(p, s, o)` is

      Σ_d x(p, s, d) · w(o, d)  +  2 · Σ_r (Σ_d x(p, s, d) · a(r, d)) · b(o, r).

  The kernel works on the rows `p · 2048 + s` of `x` flattened to `[8192, 4096]`, and forms the first sum in eight
  steps of 512 terms, step `k` adding the terms `d = k · 512 + e`; the reference forms it at once. Addition of
  extended reals is commutative and associative, so the eight partial sums add up to the whole sum whatever the
  values, infinite ones included: no finiteness is needed.
-/
import Idealize.ShloMosaic.PureOps.Ideal
import Idealize.ShloMosaic.Lib.ValueIdx
import proofs.«147687_j65687229825758_2_alg».proof.Proof.LibBlockedSums

noncomputable section

open scoped BigOperators

namespace Cert.LoraSpec

open Idealize.ShloMosaic Idealize.ShloMosaic.ValueIdx

/-- The scale `alpha / rank = 2`, as the word both programs write. -/
abbrev scale : EReal := Ideal.ofBits .f32 0x40000000#32

/-- The result at `(p, s, o)`: the base product plus the scaled low-rank product. -/
def resultAt (x : (⟨3, ![4, 2048, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (p : Fin 4) (s : Fin 2048) (o : Fin 4096) : EReal :=
  (∑ d : Fin 4096, x (ix3 p s d) * w (ix2 o d))
    + scale * ∑ r : Fin 8, (∑ d : Fin 4096, x (ix3 p s d) * a (ix2 r d)) * b (ix2 o r)

/-- The result array: `resultAt` at the index's three coordinates. -/
def result (x : (⟨3, ![4, 2048, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal) :
    (⟨3, ![4, 2048, 4096]⟩ : Shape).Idx → EReal :=
  fun i => resultAt x w a b (i 0) (i 1) (i 2)

theorem result_ix3 (x : (⟨3, ![4, 2048, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (p : Fin 4) (s : Fin 2048) (o : Fin 4096) :
    result x w a b (ix3 p s o) = resultAt x w a b p s o := rfl

/-- The same value over the flattened rows: with `X : [8192, 4096]` the rows of `x`, `XA : [8192, 8]` their low-rank
    projections, the entry `(r, o)` of the `[8192, 4096]` array the kernel writes. -/
def flatAt (X : (⟨2, ![8192, 4096]⟩ : Shape).Idx → EReal) (W : (⟨2, ![4096, 4096]⟩ : Shape).Idx → EReal)
    (XA : (⟨2, ![8192, 8]⟩ : Shape).Idx → EReal) (B : (⟨2, ![4096, 8]⟩ : Shape).Idx → EReal)
    (r : Fin 8192) (o : Fin 4096) : EReal :=
  (∑ d : Fin 4096, X (ix2 r d) * W (ix2 o d)) + scale * ∑ q : Fin 8, XA (ix2 r q) * B (ix2 o q)

/-- The `[8192, 4096]` array of those entries. -/
def flat (X : (⟨2, ![8192, 4096]⟩ : Shape).Idx → EReal) (W : (⟨2, ![4096, 4096]⟩ : Shape).Idx → EReal)
    (XA : (⟨2, ![8192, 8]⟩ : Shape).Idx → EReal) (B : (⟨2, ![4096, 8]⟩ : Shape).Idx → EReal) :
    (⟨2, ![8192, 4096]⟩ : Shape).Idx → EReal :=
  fun i => flatAt X W XA B (i 0) (i 1)

theorem flat_ix2 (X : (⟨2, ![8192, 4096]⟩ : Shape).Idx → EReal) (W : (⟨2, ![4096, 4096]⟩ : Shape).Idx → EReal)
    (XA : (⟨2, ![8192, 8]⟩ : Shape).Idx → EReal) (B : (⟨2, ![4096, 8]⟩ : Shape).Idx → EReal)
    (r : Fin 8192) (o : Fin 4096) : flat X W XA B (ix2 r o) = flatAt X W XA B r o := rfl

/-- Column `e` of step `k` of the contraction: `(k mod 8) · 512 + e` (the step taken modulo 8, so that the column is
    defined for every natural number `k`). -/
def col (k : ℕ) (e : Fin 512) : Fin 4096 :=
  ⟨k % 8 * 512 + e.val, by have := e.isLt; have := Nat.mod_lt k (by decide : 0 < 8); omega⟩

/-- The column depends on the step only modulo 8. -/
theorem col_mod (k : ℕ) (e : Fin 512) : col (k % 8) e = col k e :=
  Fin.ext (by show k % 8 % 8 * 512 + e.val = k % 8 * 512 + e.val; rw [Nat.mod_mod])

/-- THE LAW: the eight steps' partial sums, 512 terms each, add up to the sum over all 4096 columns. -/
theorem sum_steps {M : Type*} [AddCommMonoid M] (f : Fin 4096 → M) :
    ∑ k ∈ Finset.range 8, ∑ e : Fin 512, f (col k e) = ∑ d : Fin 4096, f d := by
  rw [BlockedSums.sum_range_eq_sum_fin 8 (fun k => ∑ e : Fin 512, f (col k e))]
  rw [show (∑ d : Fin 4096, f d) = ∑ d : Fin (8 * 512), f d from rfl, BlockedSums.sum_blocks 8 512 f]
  refine Finset.sum_congr rfl fun a _ => Finset.sum_congr rfl fun e _ => congrArg f (Fin.ext ?_)
  show a.val % 8 * 512 + e.val = a.val * 512 + e.val
  rw [Nat.mod_eq_of_lt a.isLt]

end Cert.LoraSpec

end
-- ==== Proof.Pieces.lean ====
/-
  What one run of the kernel body leaves behind, in each of its three cases, as values.

  The body keeps a `[2048, 1024]` accumulator in a scratch buffer that survives from one grid point to the next.
  At a point it (first step of a row of eight only) overwrites the accumulator with zeros, then adds to it the
  product of the point's `[2048, 512]` block of the rows with the transpose of its `[1024, 512]` block of the
  weights, and (last step only) writes to the output block the accumulator plus twice the product of the
  `[2048, 8]` block of projected rows with the transpose of the `[1024, 8]` block of the second low-rank factor.
  So, with `acc` what the point before left:
    first step  : the scratch ends at  step (zeros) x w ;
    middle step : the scratch ends at  step acc x w ;
    last step   : the scratch ends at  step acc x w , and the output block at  finish xa lb (step acc x w) ,
  where `step` and `finish` are the body's two stored expressions. Each is the one store that covers its buffer
  whole, read back through the whole buffer. Stated for every interpretation of the floats.
-/
import proofs.«147687_j65687229825758_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- First step: the scratch is zeroed, read back, and ends at the zeros plus the point's partial product. -/
theorem scratch_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x8 .bf16) (harg5 : arg5.IsWhole) (arg6 : Memref sig .tc .vmem S1024x8 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S1024x512 .bf16) (x2 : Vec F S2048x8 .bf16) (x3 : Vec F S1024x8 .bf16) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) zero_offsets, View.readCov_unit_zero (S := S2048x1024) _ zero_offsets]
  simp only [View.readAt_eq_ld, harg3.read_unread, harg4.read_unread, View.ld_unit_zero (S := S2048x512) zero_offsets,
    View.ld_unit_zero (S := S1024x512) zero_offsets]

/-- Middle step: the scratch, found at `acc`, ends at `acc` plus the point's partial product. -/
theorem scratch_middle (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x8 .bf16) (harg5 : arg5.IsWhole) (arg6 : Memref sig .tc .vmem S1024x8 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S1024x512 .bf16) (x2 : Vec F S2048x8 .bf16) (x3 : Vec F S1024x8 .bf16) (acc : Vec F S2048x1024 .f32) :
    sout0_B_0 c i arg3 harg3 arg4 harg4 arg5 harg5 arg6 harg6 arg7 harg7 arg8 harg8 hc0 hc1 x0 x1 x2 x3 acc = k0_pay2 acc x0 x1 := by
  unfold sout0_B_0
  rw [View.read_writes_eq_canon _ _ _ (scover0_B_0 c i arg3 harg3 arg4 harg4 arg5 harg5 arg6 harg6 arg7 harg7 arg8 harg8 hc0 hc1 x0 x1 x2 x3 acc)]
  unfold kernelRun0_B
  dsimp only
  sl_unfold_words
  rw [View.canon_unit_zero (S := S2048x1024) zero_offsets]
  simp only [View.readAt_eq_ld, harg3.read_unread, harg4.read_unread, harg8.read_unread,
    View.ld_unit_zero (S := S2048x512) zero_offsets, View.ld_unit_zero (S := S1024x512) zero_offsets,
    View.ld_unit_zero (S := S2048x1024) zero_offsets]

/-- Last step: the scratch likewise, -/
theorem scratch_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x8 .bf16) (harg5 : arg5.IsWhole) (arg6 : Memref sig .tc .vmem S1024x8 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S1024x512 .bf16) (x2 : Vec F S2048x8 .bf16) (x3 : Vec F S1024x8 .bf16) (acc : Vec F S2048x1024 .f32) :
    sout0_C_0 c i arg3 harg3 arg4 harg4 arg5 harg5 arg6 harg6 arg7 harg7 arg8 harg8 hc0 hc1 x0 x1 x2 x3 acc = k0_pay2 acc x0 x1 := by
  unfold sout0_C_0
  rw [View.read_writes_eq_canon _ _ _ (scover0_C_0 c i arg3 harg3 arg4 harg4 arg5 harg5 arg6 harg6 arg7 harg7 arg8 harg8 hc0 hc1 x0 x1 x2 x3 acc)]
  unfold kernelRun0_C
  dsimp only
  sl_unfold_words
  rw [View.canon_unit_zero (S := S2048x1024) zero_offsets]
  simp only [View.readAt_eq_ld, harg3.read_unread, harg4.read_unread, harg8.read_unread,
    View.ld_unit_zero (S := S2048x512) zero_offsets, View.ld_unit_zero (S := S1024x512) zero_offsets,
    View.ld_unit_zero (S := S2048x1024) zero_offsets]

/-- and the output block ends at the finished value of the updated accumulator. -/
theorem output_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x8 .bf16) (harg5 : arg5.IsWhole) (arg6 : Memref sig .tc .vmem S1024x8 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S1024x512 .bf16) (x2 : Vec F S2048x8 .bf16) (x3 : Vec F S1024x8 .bf16) (acc : Vec F S2048x1024 .f32) :
    out0_C_4 c i arg3 harg3 arg4 harg4 arg5 harg5 arg6 harg6 arg7 harg7 arg8 harg8 hc0 hc1 x0 x1 x2 x3 acc = k0_pay3 x2 x3 (k0_pay2 acc x0 x1) := by
  unfold out0_C_4
  rw [View.read_writes_eq_canon _ _ _ (cover0_C_4 c i arg3 harg3 arg4 harg4 arg5 harg5 arg6 harg6 arg7 harg7 arg8 harg8 hc0 hc1 x0 x1 x2 x3 acc)]
  unfold kernelRun0_C
  dsimp only
  sl_unfold_words
  rw [View.canon_unit_zero (S := S2048x1024) zero_offsets, View.readCov_unit_zero (S := S2048x1024) _ zero_offsets]
  simp only [View.readAt_eq_ld, harg3.read_unread, harg4.read_unread, harg5.read_unread, harg6.read_unread, harg8.read_unread,
    View.ld_unit_zero (S := S2048x512) zero_offsets, View.ld_unit_zero (S := S1024x512) zero_offsets,
    View.ld_unit_zero (S := S2048x8) zero_offsets, View.ld_unit_zero (S := S1024x8) zero_offsets,
    View.ld_unit_zero (S := S2048x1024) zero_offsets]

end Cert.KernelIdeal.Pieces

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.Payloads.lean ====
/-
  The kernel body's three stored expressions, read at an entry over the extended reals.

  * the reset value is `0` everywhere;
  * one accumulation step, at `(p, q)`: the accumulator's entry plus `Σ_e x(p, e) · w(q, e)` over the 512 columns of
    the point's blocks (a matrix product into a zero accumulator, both operands contracted on their last axis; the
    whole-block reshapes are identities, and the operands' narrower float format is no change of value);
  * the finishing expression, at `(p, q)`: the accumulator's entry plus `2 · Σ_r xa(p, r) · lb(q, r)` over the rank 8.
-/
import proofs.«147687_j65687229825758_2_alg».proof.Proof.Gen.KernelIdeal.Skeleton
import proofs.«147687_j65687229825758_2_alg».proof.Proof.LibContractLast
import proofs.«147687_j65687229825758_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen

/-- The reset value is zero at every entry. -/
theorem reset_apply (i : S2048x1024.Idx) : k0_pay1 (F := Ideal) i = 0 := by
  unfold k0_pay1
  rw [shapeCast_self]
  exact Ideal.ofBits_zero_f32

/-- One accumulation step at `(p, q)`. -/
theorem step_apply (acc : Vec Ideal S2048x1024 .f32) (x : Vec Ideal S2048x512 .bf16) (w : Vec Ideal S1024x512 .bf16)
    (p : Fin 2048) (q : Fin 1024) :
    k0_pay2 acc x w (ix2 p q) = acc (ix2 p q) + ∑ e : Fin 512, x (ix2 p e) * w (ix2 q e) := by
  unfold k0_pay2
  simp only [shapeCast_self]
  exact congrArg (acc (ix2 p q) + ·)
    (Cert.LibContractLast.matmulLast_zero_apply 2048 512 1024 dot_S2048x512_S1024x512_S2048x1024_1_1_0_0_n_n_wf none x w p q)

/-- The finishing expression at `(p, q)`. -/
theorem finish_apply (xa : Vec Ideal S2048x8 .bf16) (lb : Vec Ideal S1024x8 .bf16) (acc : Vec Ideal S2048x1024 .f32)
    (p : Fin 2048) (q : Fin 1024) :
    k0_pay3 xa lb acc (ix2 p q)
      = acc (ix2 p q) + Cert.LoraSpec.scale * ∑ r : Fin 8, xa (ix2 p r) * lb (ix2 q r) := by
  unfold k0_pay3
  simp only [shapeCast_self]
  exact congrArg (fun z => acc (ix2 p q) + Cert.LoraSpec.scale * z)
    (Cert.LibContractLast.matmulLast_zero_apply 2048 8 1024 dot_S2048x8_S1024x8_S2048x1024_1_1_0_0_n_n_wf none xa lb p q)

end Cert.KernelIdeal.Payloads

end
-- ==== Proof.Accumulate.lean ====
/-
  The kernel's output array after the grid has run, as one function of the four arrays its windows read.

  The grid is `4 × 4 × 8`, walked in row-major order: position `n` is row block `n / 32`, column block
  `n / 8 mod 4`, step `n mod 8`. The point reads rows `(n / 32) · 2048 + p` and columns `(n mod 8) · 512 + e` of the
  flattened rows `X`, rows `(n / 8 mod 4) · 1024 + q` and the same columns of the weights `W`, and, at the last
  step, the same rows of the projected rows `XA` and of the second factor `LB`.

  By induction on the position, the scratch accumulator after position `n` holds at `(p, q)` the sum of the partial
  products of the steps `0 … n mod 8` of its row and column block: a first step starts from zero, every other step
  adds one partial product to what the position before left, and the position before has the same row and column
  block. At a last step the eight partial products are the whole product over the 4096 columns, and the output block
  is that plus twice the low-rank product: the block of `flat X W XA LB`. Only last steps write their block back,
  and their blocks tile the `[8192, 4096]` array, so the array ends at `flat X W XA LB`.
-/
import proofs.«147687_j65687229825758_2_alg».proof.Proof.Gen.KernelIdeal.Frame
import proofs.«147687_j65687229825758_2_alg».proof.Proof.Pieces
import proofs.«147687_j65687229825758_2_alg».proof.Proof.Payloads
import proofs.«147687_j65687229825758_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-! ## Where a position's blocks sit -/

/-- The block index of every window at every position, decided over the 128 positions. -/
theorem idx_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = t.val / 32 % 4 ∧ win0_2.index t (1 : Fin 2) = 0
    ∧ win0_3.index t (0 : Fin 2) = t.val / 8 % 4 ∧ win0_3.index t (1 : Fin 2) = 0
    ∧ win0_4.index t (0 : Fin 2) = t.val / 32 % 4 ∧ win0_4.index t (1 : Fin 2) = t.val / 8 % 4 :=
  (by decide +kernel : ∀ t : Fin grid0.N, _)

/-- Row `p` of position `n`'s row block, in the flattened rows. -/
def rowOf (n : ℕ) (p : Fin 2048) : Fin 8192 :=
  ⟨n / 32 % 4 * 2048 + p.val, by have := p.isLt; have := Nat.mod_lt (n / 32) (by decide : 0 < 4); omega⟩

/-- Row `q` of position `n`'s column block, in the weights. -/
def colOf (n : ℕ) (q : Fin 1024) : Fin 4096 :=
  ⟨n / 8 % 4 * 1024 + q.val, by have := q.isLt; have := Nat.mod_lt (n / 8) (by decide : 0 < 4); omega⟩

/-! ## The windows' blocks read at an entry, for any contents of their arrays -/

theorem read_rows (c : Dev nD) (A : Buf (Elt Ideal) ((c : Thread nD τ).loc main_v1)) (t : Fin cfg0.N)
    (p : Fin 2048) (e : Fin 512) :
    ((cfg0.win 0).blk t).view.read (Elt Ideal) A (ix2 p e) = A (ix2 (rowOf t.val p) (Cert.LoraSpec.col t.val e)) := by
  obtain ⟨h0, h1, -⟩ := idx_facts t
  rw [View.read_apply]
  show A _ = A _
  refine congrArg A (funext fun a => Fin.ext ?_)
  match a with
  | ⟨0, _⟩ => show win0_0.index t (0 : Fin 2) * 2048 + 1 * p.val = t.val / 32 % 4 * 2048 + p.val; rw [h0]; omega
  | ⟨1, _⟩ => show win0_0.index t (1 : Fin 2) * 512 + 1 * e.val = t.val % 8 * 512 + e.val; rw [h1]; omega

theorem read_weights (c : Dev nD) (A : Buf (Elt Ideal) ((c : Thread nD τ).loc main_v2)) (t : Fin cfg0.N)
    (q : Fin 1024) (e : Fin 512) :
    ((cfg0.win 1).blk t).view.read (Elt Ideal) A (ix2 q e) = A (ix2 (colOf t.val q) (Cert.LoraSpec.col t.val e)) := by
  obtain ⟨-, -, h0, h1, -⟩ := idx_facts t
  rw [View.read_apply]
  show A _ = A _
  refine congrArg A (funext fun a => Fin.ext ?_)
  match a with
  | ⟨0, _⟩ => show win0_1.index t (0 : Fin 2) * 1024 + 1 * q.val = t.val / 8 % 4 * 1024 + q.val; rw [h0]; omega
  | ⟨1, _⟩ => show win0_1.index t (1 : Fin 2) * 512 + 1 * e.val = t.val % 8 * 512 + e.val; rw [h1]; omega

theorem read_proj (c : Dev nD) (A : Buf (Elt Ideal) ((c : Thread nD τ).loc main_v6)) (t : Fin cfg0.N)
    (p : Fin 2048) (r : Fin 8) :
    ((cfg0.win 2).blk t).view.read (Elt Ideal) A (ix2 p r) = A (ix2 (rowOf t.val p) r) := by
  obtain ⟨-, -, -, -, h0, h1, -⟩ := idx_facts t
  rw [View.read_apply]
  show A _ = A _
  refine congrArg A (funext fun a => Fin.ext ?_)
  match a with
  | ⟨0, _⟩ => show win0_2.index t (0 : Fin 2) * 2048 + 1 * p.val = t.val / 32 % 4 * 2048 + p.val; rw [h0]; omega
  | ⟨1, _⟩ => show win0_2.index t (1 : Fin 2) * 8 + 1 * r.val = r.val; rw [h1]; omega

theorem read_factor (c : Dev nD) (A : Buf (Elt Ideal) ((c : Thread nD τ).loc main_v4)) (t : Fin cfg0.N)
    (q : Fin 1024) (r : Fin 8) :
    ((cfg0.win 3).blk t).view.read (Elt Ideal) A (ix2 q r) = A (ix2 (colOf t.val q) r) := by
  obtain ⟨-, -, -, -, -, -, h0, h1, -⟩ := idx_facts t
  rw [View.read_apply]
  show A _ = A _
  refine congrArg A (funext fun a => Fin.ext ?_)
  match a with
  | ⟨0, _⟩ => show win0_3.index t (0 : Fin 2) * 1024 + 1 * q.val = t.val / 8 % 4 * 1024 + q.val; rw [h0]; omega
  | ⟨1, _⟩ => show win0_3.index t (1 : Fin 2) * 8 + 1 * r.val = r.val; rw [h1]; omega

theorem read_out (c : Dev nD) (A : Buf (Elt Ideal) ((c : Thread nD τ).loc main_v7)) (t : Fin cfg0.N)
    (p : Fin 2048) (q : Fin 1024) :
    ((cfg0.win 4).blk t).view.read (Elt Ideal) A (ix2 p q) = A (ix2 (rowOf t.val p) (colOf t.val q)) := by
  obtain ⟨-, -, -, -, -, -, -, -, h0, h1⟩ := idx_facts t
  rw [View.read_apply]
  show A _ = A _
  refine congrArg A (funext fun a => Fin.ext ?_)
  match a with
  | ⟨0, _⟩ => show win0_4.index t (0 : Fin 2) * 2048 + 1 * p.val = t.val / 32 % 4 * 2048 + p.val; rw [h0]; omega
  | ⟨1, _⟩ => show win0_4.index t (1 : Fin 2) * 1024 + 1 * q.val = t.val / 8 % 4 * 1024 + q.val; rw [h1]; omega

/-! ## The four arrays as the region finds them -/

/-- The flattened rows `X : [8192, 4096]`. -/
def rowsOf (c : Dev nD) : S8192x4096.Idx → EReal := V m c main_v1
/-- The weights `W : [4096, 4096]`. -/
def weightsOf (c : Dev nD) : S4096x4096.Idx → EReal := V m c main_v2
/-- The projected rows `XA : [8192, 8]`. -/
def projOf (c : Dev nD) : S8192x8.Idx → EReal := V m c main_v6
/-- The second low-rank factor `LB : [4096, 8]`. -/
def factorOf (c : Dev nD) : S4096x8.Idx → EReal := V m c main_v4

theorem rows_blk (c : Dev nD) (t : Fin cfg0.N) (p : Fin 2048) (e : Fin 512) :
    iblk m c 0 t (ix2 p e) = rowsOf m c (ix2 (rowOf t.val p) (Cert.LoraSpec.col t.val e)) :=
  read_rows c (V m c main_v1) t p e
theorem weights_blk (c : Dev nD) (t : Fin cfg0.N) (q : Fin 1024) (e : Fin 512) :
    iblk m c 1 t (ix2 q e) = weightsOf m c (ix2 (colOf t.val q) (Cert.LoraSpec.col t.val e)) :=
  read_weights c (V m c main_v2) t q e
theorem proj_blk (c : Dev nD) (t : Fin cfg0.N) (p : Fin 2048) (r : Fin 8) :
    iblk m c 2 t (ix2 p r) = projOf m c (ix2 (rowOf t.val p) r) :=
  read_proj c (V m c main_v6) t p r
theorem factor_blk (c : Dev nD) (t : Fin cfg0.N) (q : Fin 1024) (r : Fin 8) :
    iblk m c 3 t (ix2 q r) = factorOf m c (ix2 (colOf t.val q) r) :=
  read_factor c (V m c main_v4) t q r

/-! ## What a position leaves, from what the position before left -/

/-- A first step leaves the scratch at one accumulation step from the reset value. -/
theorem scratch_zero (c : Dev nD) (t : Fin cfg0.N) (h0 : t.val % 8 = 0) :
    (outsAt0 m c t.val t.isLt).2 = k0_pay2 (k0_pay1 (F := Ideal)) (iblk m c 0 t) (iblk m c 1 t) := by
  have h1 : ¬t.val % 8 = 7 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- Any other step leaves it at one accumulation step from what the position before left. -/
theorem scratch_step (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2

/-- A last step leaves the output block at the finishing expression of one accumulation step from what the position
    before left. -/
theorem output_at (c : Dev nD) (t : Fin cfg0.N) (h7 : t.val % 8 = 7) :
    (outsAt0 m c t.val t.isLt).1
      = k0_pay3 (iblk m c 2 t) (iblk m c 3 t) (k0_pay2 (outsAt0 m c (t.val - 1) (Nat.lt_of_le_of_lt (Nat.sub_le _ _) t.isLt)).2 (iblk m c 0 t) (iblk m c 1 t)) := by
  have h0 : ¬t.val % 8 = 0 := by omega
  rw [outsAt0_C m c t h0 h7]
  dsimp only
  exact Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
    (iblk m c 0 t) (iblk m c 1 t) (iblk m c 2 t) (iblk m c 3 t) (outsAt0 m c (t.val - 1) (Nat.lt_of_le_of_lt (Nat.sub_le _ _) t.isLt)).2

/-! ## The scratch is the sum of the partial products so far -/

/-- Step `k`'s partial product at row `r` of `X` and row `o` of `W`. -/
def stepTerm (c : Dev nD) (r : Fin 8192) (o : Fin 4096) (k : ℕ) : EReal :=
  ∑ e : Fin 512, rowsOf m c (ix2 r (Cert.LoraSpec.col k e)) * weightsOf m c (ix2 o (Cert.LoraSpec.col k e))

theorem stepTerm_mod (c : Dev nD) (r : Fin 8192) (o : Fin 4096) (k : ℕ) :
    stepTerm m c r o k = stepTerm m c r o (k % 8) := by
  unfold stepTerm
  exact Finset.sum_congr rfl fun e _ => by rw [Cert.LoraSpec.col_mod]

/-- After a first step: that step's partial product. -/
theorem acc_first (c : Dev nD) (t : Fin cfg0.N) (h0 : t.val % 8 = 0) (p : Fin 2048) (q : Fin 1024) :
    (outsAt0 m c t.val t.isLt).2 (ix2 p q) = stepTerm m c (rowOf t.val p) (colOf t.val q) t.val := by
  refine (congrFun (scratch_zero m c t h0) (ix2 p q)).trans ?_
  refine (Payloads.step_apply (k0_pay1 (F := Ideal)) (iblk m c 0 t) (iblk m c 1 t) p q).trans ?_
  rw [Payloads.reset_apply, zero_add]
  exact Finset.sum_congr rfl fun e _ => by rw [rows_blk, weights_blk]

/-- After any other step: what the position before left, plus that step's partial product. -/
theorem acc_next (c : Dev nD) (n : ℕ) (h : n + 1 < cfg0.N) (h0 : ¬(n + 1) % 8 = 0) (p : Fin 2048) (q : Fin 1024) :
    (outsAt0 m c (n + 1) h).2 (ix2 p q)
      = (outsAt0 m c n (Nat.lt_of_succ_lt h)).2 (ix2 p q) + stepTerm m c (rowOf (n + 1) p) (colOf (n + 1) q) (n + 1) := by
  refine (congrFun (scratch_step m c ⟨n + 1, h⟩ h0) (ix2 p q)).trans ?_
  refine (Payloads.step_apply (outsAt0 m c n (Nat.lt_of_succ_lt h)).2 (iblk m c 0 ⟨n + 1, h⟩) (iblk m c 1 ⟨n + 1, h⟩) p q).trans ?_
  exact congrArg ((outsAt0 m c n (Nat.lt_of_succ_lt h)).2 (ix2 p q) + ·)
    (Finset.sum_congr rfl fun e _ => by rw [rows_blk, weights_blk])

/-- THE ACCUMULATION: after position `n` the scratch holds, at `(p, q)`, the partial products of the steps
    `0 … n mod 8` of the position's row and column block. -/
theorem acc_apply (c : Dev nD) : ∀ (n : ℕ) (h : n < cfg0.N) (p : Fin 2048) (q : Fin 1024),
    (outsAt0 m c n h).2 (ix2 p q) = ∑ k ∈ Finset.range (n % 8 + 1), stepTerm m c (rowOf n p) (colOf n q) k
  | 0, h, p, q => by
    refine (acc_first m c ⟨0, h⟩ rfl p q).trans ?_
    show stepTerm m c (rowOf 0 p) (colOf 0 q) 0 = ∑ k ∈ Finset.range 1, stepTerm m c (rowOf 0 p) (colOf 0 q) k
    rw [Finset.sum_range_one]
  | n + 1, h, p, q => by
    by_cases h0 : (n + 1) % 8 = 0
    · refine (acc_first m c ⟨n + 1, h⟩ h0 p q).trans ?_
      show stepTerm m c (rowOf (n + 1) p) (colOf (n + 1) q) (n + 1) = _
      rw [h0, Finset.sum_range_one, stepTerm_mod, h0]
    · have hr : rowOf n p = rowOf (n + 1) p :=
        Fin.ext (by show n / 32 % 4 * 2048 + p.val = (n + 1) / 32 % 4 * 2048 + p.val; omega)
      have hc : colOf n q = colOf (n + 1) q :=
        Fin.ext (by show n / 8 % 4 * 1024 + q.val = (n + 1) / 8 % 4 * 1024 + q.val; omega)
      have hk : n % 8 + 1 = (n + 1) % 8 := by omega
      rw [acc_next m c n h h0 p q, acc_apply c n (Nat.lt_of_succ_lt h) p q, hr, hc, hk,
        stepTerm_mod m c _ _ (n + 1), Finset.sum_range_succ]

/-! ## The output block at a last step -/

/-- At a last step the output block holds, at `(p, q)`, the entry of `flat X W XA LB` at the block's row and column. -/
theorem out_apply (c : Dev nD) (t : Fin cfg0.N) (h7 : t.val % 8 = 7) (p : Fin 2048) (q : Fin 1024) :
    (outsAt0 m c t.val t.isLt).1 (ix2 p q)
      = Cert.LoraSpec.flatAt (rowsOf m c) (weightsOf m c) (projOf m c) (factorOf m c) (rowOf t.val p) (colOf t.val q) := by
  have h0 : ¬t.val % 8 = 0 := by omega
  refine (congrFun (output_at m c t h7) (ix2 p q)).trans ?_
  rw [← scratch_step m c t h0]
  refine (Payloads.finish_apply (iblk m c 2 t) (iblk m c 3 t) (outsAt0 m c t.val t.isLt).2 p q).trans ?_
  rw [acc_apply m c t.val t.isLt p q, h7]
  unfold Cert.LoraSpec.flatAt
  refine congrArg₂ (· + ·) ?_
    (congrArg (Cert.LoraSpec.scale * ·) (Finset.sum_congr rfl fun r _ => by rw [proj_blk, factor_blk]))
  exact Cert.LoraSpec.sum_steps
    (fun d => rowsOf m c (ix2 (rowOf t.val p) d) * weightsOf m c (ix2 (colOf t.val q) d))

/-! ## The array after the run -/

/-- The `[8192, 4096]` array of the kernel's results. -/
def flatOut (c : Dev nD) : S8192x4096.Idx → EReal :=
  Cert.LoraSpec.flat (rowsOf m c) (weightsOf m c) (projOf m c) (factorOf m c)

/-- What a last step writes back is its block of that array. -/
theorem flushed_eq (c : Dev nD) (t : Fin cfg0.N) (hf : (cfg0.win 4).flush t = true) :
    (dats m 0 c).flushed 4 t = ((cfg0.win 4).blk t).view.read (Elt Ideal) (flatOut m c) := by
  have h7 : t.val % 8 = 7 := (flush0_4 t).mp hf
  funext y
  obtain ⟨p, q, rfl⟩ : ∃ (p : Fin 2048) (q : Fin 1024), y = ix2 p q := ⟨y 0, y 1, eq_ix2 y⟩
  rw [read_out c (flatOut m c) t p q]
  show (cfg0.win 4).cut (grid0.coords t) ((dats m 0 c).after 4 t) (ix2 p q) = _
  rw [after0_4]
  exact out_apply m c t h7 p q

/-- An index of the array is in position `t`'s block iff each coordinate is in the block's range on its axis. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v7).slice (win0_4.rect t)).set ↔ _
  rw [View.set_slice_whole, Rect.mem_set_unit]
  exact Iff.rfl

/-- The block of a position whose row and column block are the index's. -/
theorem mem_of_blocks (t : Fin cfg0.N) (i : S8192x4096.Idx) (h0 : t.val / 32 % 4 = (i 0).val / 2048)
    (h1 : t.val / 8 % 4 = (i 1).val / 1024) : i ∈ ((cfg0.win 4).blk t).view.set := by
  obtain ⟨-, -, -, -, -, -, -, -, e0, e1⟩ := idx_facts t
  rw [mem_blk]
  intro a
  match a with
  | ⟨0, _⟩ =>
    show win0_4.index t (0 : Fin 2) * 2048 ≤ (i 0).val ∧ (i 0).val < win0_4.index t (0 : Fin 2) * 2048 + 2048
    rw [e0, h0]; omega
  | ⟨1, _⟩ =>
    show win0_4.index t (1 : Fin 2) * 1024 ≤ (i 1).val ∧ (i 1).val < win0_4.index t (1 : Fin 2) * 1024 + 1024
    rw [e1, h1]; omega

/-- Every index is in the block of the last step of its row and column block. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  have hv : (i 0).val / 2048 * 32 + (i 1).val / 1024 * 8 + 7 < cfg0.N := by rw [hN]; omega
  refine ⟨⟨(i 0).val / 2048 * 32 + (i 1).val / 1024 * 8 + 7, hv⟩, (flush0_4 _).mpr ?_, mem_of_blocks _ i ?_ ?_⟩
  · show ((i 0).val / 2048 * 32 + (i 1).val / 1024 * 8 + 7) % 8 = 7; omega
  · show ((i 0).val / 2048 * 32 + (i 1).val / 1024 * 8 + 7) / 32 % 4 = (i 0).val / 2048; omega
  · show ((i 0).val / 2048 * 32 + (i 1).val / 1024 * 8 + 7) / 8 % 4 = (i 1).val / 1024; omega

/-- THE ARRAY AFTER THE RUN. -/
theorem final (c : Dev nD) : (dats m 0 c).arrAt 4 cfg0.N = flatOut m c :=
  (dats m 0 c).arrAt_eq_of_cover 4 (flatOut m c) (flushed_eq m c) covered

end Cert.KernelIdeal.Acc

end
-- ==== Proof.HostSide.lean ====
/-
  The kernel program around its grid: what the host lines before it hand the grid, what the host line after it
  makes of the grid's array, and so the program's result as a function of its four arguments.

  Before the grid the host flattens `x : [4, 2048, 4096]` to `X : [8192, 4096]` (row `p · 2048 + s` of `X` is row
  `(p, s)` of `x`: the same row-major position), narrows `X`, `w`, `a`, `b` to a 16-bit format (no change of value
  over the extended reals), and forms `XA = X · aᵀ` (entry `(r, q)` the sum over the 4096 columns of `X(r, d) · a(q, d)`).
  After the grid it reshapes the `[8192, 4096]` array back to `[4, 2048, 4096]`. With the grid's array at
  `flat X w XA b`, the result at `(p, s, o)` is `resultAt x w a b p s o`.
-/
import proofs.«147687_j65687229825758_2_alg».proof.Proof.Gen.KernelIdeal.Frame
import proofs.«147687_j65687229825758_2_alg».proof.Proof.Accumulate
import proofs.«147687_j65687229825758_2_alg».proof.Proof.LibContractLast
import proofs.«147687_j65687229825758_2_alg».proof.Proof.Spec
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.StableHlo
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- Row `(p, s)` of `x`, in the flattened rows. -/
def flatRow (p : Fin 4) (s : Fin 2048) : Fin 8192 := ⟨p.val * 2048 + s.val, by have := p.isLt; have := s.isLt; omega⟩

/-- The four arguments as the program is launched with them, as arrays of extended reals. -/
abbrev argX (c : Dev nD) : S4x2048x4096.Idx → EReal := m ((c : Thread nD τ).loc main_arg0)
abbrev argW (c : Dev nD) : S4096x4096.Idx → EReal := m ((c : Thread nD τ).loc main_arg1)
abbrev argA (c : Dev nD) : S8x4096.Idx → EReal := m ((c : Thread nD τ).loc main_arg2)
abbrev argB (c : Dev nD) : S4096x8.Idx → EReal := m ((c : Thread nD τ).loc main_arg3)

/-! ## The four arrays the grid finds, as terms of the arguments -/

theorem rows_eq (c : Dev nD) : Acc.rowsOf m c = (truncf (F := Ideal) .bf16 (shapeCast S8192x4096 (argX m c) shapeCasts_S4x2048x4096_S8192x4096) bitsLt_bf16_f32) := by
  unfold Acc.rowsOf
  show StableHlo.after hostOps0 (fun b => m (c, b)) (Proc.devRef .tc main_v1) = _
  after_results
  rfl

theorem weights_eq (c : Dev nD) : Acc.weightsOf m c = (truncf (F := Ideal) .bf16 (argW m c) bitsLt_bf16_f32) := by
  unfold Acc.weightsOf
  show StableHlo.after hostOps0 (fun b => m (c, b)) (Proc.devRef .tc main_v2) = _
  after_results

theorem factor_eq (c : Dev nD) : Acc.factorOf m c = (truncf (F := Ideal) .bf16 (argB m c) bitsLt_bf16_f32) := by
  unfold Acc.factorOf
  show StableHlo.after hostOps0 (fun b => m (c, b)) (Proc.devRef .tc main_v4) = _
  after_results

theorem proj_eq (c : Dev nD) : Acc.projOf m c
    = (truncf (F := Ideal) .bf16 (Host.dotGeneral (F := Ideal) dot_S8192x4096_S8x4096_S8192x8_1_1_0_0_n_n none
        (truncf (F := Ideal) .bf16 (shapeCast S8192x4096 (argX m c) shapeCasts_S4x2048x4096_S8192x4096) bitsLt_bf16_f32)
        (truncf (F := Ideal) .bf16 (argA m c) bitsLt_bf16_f32)) bitsLt_bf16_f32) := by
  unfold Acc.projOf
  show StableHlo.after hostOps0 (fun b => m (c, b)) (Proc.devRef .tc main_v6) = _
  after_results
  rfl

/-! ## Read at an entry -/

/-- The flattening reads `x` at the same row-major position. -/
theorem flatten_apply (x : S4x2048x4096.Idx → EReal) (p : Fin 4) (s : Fin 2048) (d : Fin 4096) :
    shapeCast S8192x4096 x shapeCasts_S4x2048x4096_S8192x4096 (ix2 (flatRow p s) d) = x (ix3 p s d) :=
  shapeCast_apply x shapeCasts_S4x2048x4096_S8192x4096 (ix2 (flatRow p s) d) (ix3 p s d) (by
    rw [Shape.rowMajor_val_three, Shape.rowMajor_val_two]; rfl)

/-- The reshape back reads the `[8192, 4096]` array at the same row-major position. -/
theorem unflatten_apply (y : S8192x4096.Idx → EReal) (p : Fin 4) (s : Fin 2048) (o : Fin 4096) :
    shapeCast S4x2048x4096 y shapeCasts_S8192x4096_S4x2048x4096 (ix3 p s o) = y (ix2 (flatRow p s) o) :=
  shapeCast_apply y shapeCasts_S8192x4096_S4x2048x4096 (ix3 p s o) (ix2 (flatRow p s) o) (by
    rw [Shape.rowMajor_val_three, Shape.rowMajor_val_two]; rfl)

theorem rows_apply (c : Dev nD) (p : Fin 4) (s : Fin 2048) (d : Fin 4096) :
    Acc.rowsOf m c (ix2 (flatRow p s) d) = argX m c (ix3 p s d) := by
  rw [rows_eq]
  exact flatten_apply _ p s d

theorem weights_apply (c : Dev nD) (o : Fin 4096) (d : Fin 4096) :
    Acc.weightsOf m c (ix2 o d) = argW m c (ix2 o d) := by
  rw [weights_eq]; rfl

theorem factor_apply (c : Dev nD) (o : Fin 4096) (r : Fin 8) :
    Acc.factorOf m c (ix2 o r) = argB m c (ix2 o r) := by
  rw [factor_eq]; rfl

theorem proj_apply (c : Dev nD) (p : Fin 4) (s : Fin 2048) (r : Fin 8) :
    Acc.projOf m c (ix2 (flatRow p s) r) = ∑ d : Fin 4096, argX m c (ix3 p s d) * argA m c (ix2 r d) := by
  rw [proj_eq]
  refine (Cert.LibContractLast.dotLast_apply 8192 4096 8 dot_S8192x4096_S8x4096_S8192x8_1_1_0_0_n_n_wf none
    (truncf (F := Ideal) .bf16 (shapeCast S8192x4096 (argX m c) shapeCasts_S4x2048x4096_S8192x4096) bitsLt_bf16_f32)
    (truncf (F := Ideal) .bf16 (argA m c) bitsLt_bf16_f32) (flatRow p s) r).trans ?_
  exact Finset.sum_congr rfl fun d _ => congrArg (· * argA m c (ix2 r d)) (flatten_apply _ p s d)

/-! ## The program's result -/

/-- The reshape of the grid's array back to `[4, 2048, 4096]` is the common result of the two programs. -/
theorem result_eq (c : Dev nD) :
    shapeCast S4x2048x4096 (Acc.flatOut m c) shapeCasts_S8192x4096_S4x2048x4096
      = Cert.LoraSpec.result (argX m c) (argW m c) (argA m c) (argB m c) := by
  funext i
  obtain ⟨p, s, o, rfl⟩ : ∃ (p : Fin 4) (s : Fin 2048) (o : Fin 4096), i = ix3 p s o := ⟨i 0, i 1, i 2, eq_ix3 i⟩
  refine (unflatten_apply (Acc.flatOut m c) p s o).trans ?_
  show Cert.LoraSpec.flatAt (Acc.rowsOf m c) (Acc.weightsOf m c) (Acc.projOf m c) (Acc.factorOf m c) (flatRow p s) o
    = Cert.LoraSpec.resultAt (argX m c) (argW m c) (argA m c) (argB m c) p s o
  unfold Cert.LoraSpec.flatAt Cert.LoraSpec.resultAt
  exact congrArg₂ (· + ·) (Finset.sum_congr rfl fun d _ => by rw [rows_apply, weights_apply])
    (congrArg (Cert.LoraSpec.scale * ·) (Finset.sum_congr rfl fun r _ => by rw [proj_apply, factor_apply]))

/-- What the line after the grid leaves in the result buffer. -/
theorem tail_eq (c : Dev nD) :
    Pipeline.afterTail₀ cfgs (dats m) 0 (V0 m) [hostOps1] c main_v8
      = shapeCast S4x2048x4096 (Acc.flatOut m c) shapeCasts_S8192x4096_S4x2048x4096 := by
  unfold Pipeline.afterTail₀
  show StableHlo.after hostOps1 _ (Proc.devRef .tc main_v8) = _
  after_results
  exact congrArg (fun A => shapeCast S4x2048x4096 A shapeCasts_S8192x4096_S4x2048x4096)
    ((Pipeline.withArrays_arr spec0 launch0.win.arr_inj c _ _ 4).trans (Acc.final m c))

/-- THE KERNEL PROGRAM'S RUN: it terminates without a fault, its result at the common value, its arguments unchanged. -/
theorem run : θ_run defs (onTc (τ := τ) (main (F := Ideal))) ⟨m, fun _ => 0, ρ⟩ fun r => ∀ c : Dev nD,
      r.2.mem ((c : Thread nD τ).loc main_v8)
        = Cert.LoraSpec.result (argX m c) (argW m c) (argA m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v8 (Pipeline.mem_restRefs_of main_v8 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSide

end
-- ==== Proof.RefValue.lean ====
/-
  The reference program's result is the common value.

  The reference forms `x · wᵀ`, `x · aᵀ` and `(x · aᵀ) · bᵀ` as three products over the last axes and returns the first
  plus `2` times the third. Read at `(p, s, o)`, each product is a sum over its contracted coordinate, the operands
  read at the coordinates the index names: exactly `resultAt x w a b p s o`.
-/
import proofs.«147687_j65687229825758_2_alg».proof.Proof.Gen.ReferenceIdeal.Read
import proofs.«147687_j65687229825758_2_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

theorem result_eq (x : (⟨S4x2048x4096, .f32⟩ : BufTy).Contents (Elt Ideal)) (w : (⟨S4096x4096, .f32⟩ : BufTy).Contents (Elt Ideal))
    (a : (⟨S8x4096, .f32⟩ : BufTy).Contents (Elt Ideal)) (b : (⟨S4096x8, .f32⟩ : BufTy).Contents (Elt Ideal)) :
    val_main_v5 (F := Ideal) x w a b = Cert.LoraSpec.result x w a b := by
  funext i
  obtain ⟨p, s, o, rfl⟩ : ∃ (p : Fin 4) (s : Fin 2048) (o : Fin 4096), i = ix3 p s o := ⟨i 0, i 1, i 2, eq_ix3 i⟩
  have e0 : ∀ k, lidx_main_v0 (ix3 p s o) k = ix3 p s k := fun k => funext fun c => Fin.ext (by
    match c with | ⟨0, _⟩ => rfl | ⟨1, _⟩ => rfl | ⟨2, _⟩ => rfl)
  have e1 : ∀ k, ridx_main_v0 (ix3 p s o) k = ix2 o k := fun k => funext fun c => Fin.ext (by
    match c with | ⟨0, _⟩ => rfl | ⟨1, _⟩ => rfl)
  have e2 : ∀ k : Fin 8, lidx_main_v2 (ix3 p s o) k = ix3 p s k := fun k => funext fun c => Fin.ext (by
    match c with | ⟨0, _⟩ => rfl | ⟨1, _⟩ => rfl | ⟨2, _⟩ => rfl)
  have e3 : ∀ k : Fin 8, ridx_main_v2 (ix3 p s o) k = ix2 o k := fun k => funext fun c => Fin.ext (by
    match c with | ⟨0, _⟩ => rfl | ⟨1, _⟩ => rfl)
  have e4 : ∀ (r : Fin 8) k, lidx_main_v1 (ix3 p s r) k = ix3 p s k := fun r k => funext fun c => Fin.ext (by
    match c with | ⟨0, _⟩ => rfl | ⟨1, _⟩ => rfl | ⟨2, _⟩ => rfl)
  have e5 : ∀ (r : Fin 8) k, ridx_main_v1 (ix3 p s r) k = ix2 r k := fun r k => funext fun c => Fin.ext (by
    match c with | ⟨0, _⟩ => rfl | ⟨1, _⟩ => rfl)
  rw [val_main_v5_apply, val_main_v4_apply, val_main_v0_apply, val_main_v3_apply, val_main_cst_apply, val_main_v2_apply]
  simp only [val_main_v1_apply, e0, e1, e2, e3, e4, e5]
  rfl

end Cert.ReferenceIdeal.RefValue

end
-- ==== Proof.lean ====
/-
  A linear layer with a low-rank correction, `x · wᵀ + 2 · (x · aᵀ) · bᵀ`, computed by a tiled kernel and by three whole
  products: the two programs give the same array over the extended reals.

  The kernel flattens `x` to `[8192, 4096]`, forms the projection `x · aᵀ` on the host, and runs a `4 × 4 × 8` grid:
  a `[2048, 1024]` accumulator is zeroed at the first of eight steps, gains the partial product over 512 columns at
  every step, and at the last step the output block receives the accumulator plus twice the low-rank product. The
  reference forms each product at once. The two agree because a sum of 4096 terms is the sum of its eight blocks of
  512 (addition of extended reals is commutative and associative: no finiteness of the inputs is used), the
  narrowing to a 16-bit format changes no value over the extended reals, and flattening and reshaping keep the
  row-major position.

  The modules: `Spec` (the common value and the block-sum law), `LibBlockedSums` and `LibContractLast` (finite sums
  over a product index; a product contracting both last axes read at an entry), `Pieces` and `Payloads` (what one
  run of the kernel body leaves, as values and entry by entry), `Accumulate` (the accumulator by induction over the
  grid, and the kernel's output array), `HostSide` (the host lines around the grid and the kernel program's run),
  `RefValue` (the reference's result is the common value).
-/
import proofs.«147687_j65687229825758_2_alg».proof.Defs
import proofs.«147687_j65687229825758_2_alg».proof.Proof.Gen.Kernel
import proofs.«147687_j65687229825758_2_alg».proof.Proof.Gen.Kernel.Skeleton
import proofs.«147687_j65687229825758_2_alg».proof.Proof.Gen.Kernel.Launch
import proofs.«147687_j65687229825758_2_alg».proof.Proof.Gen.Kernel.Points
import proofs.«147687_j65687229825758_2_alg».proof.Proof.Gen.Kernel.Frame
import proofs.«147687_j65687229825758_2_alg».proof.Proof.Gen.KernelIdeal
import proofs.«147687_j65687229825758_2_alg».proof.Proof.Gen.KernelIdeal.Skeleton
import proofs.«147687_j65687229825758_2_alg».proof.Proof.Gen.KernelIdeal.Launch
import proofs.«147687_j65687229825758_2_alg».proof.Proof.Gen.KernelIdeal.Points
import proofs.«147687_j65687229825758_2_alg».proof.Proof.Gen.KernelIdeal.Frame
import proofs.«147687_j65687229825758_2_alg».proof.Proof.Gen.ReferenceIdeal
import proofs.«147687_j65687229825758_2_alg».proof.Proof.Gen.ReferenceIdeal.Run
import proofs.«147687_j65687229825758_2_alg».proof.Proof.Gen.ReferenceIdeal.Read
import proofs.«147687_j65687229825758_2_alg».proof.Proof.Gen.Pre_finite_inputs
import proofs.«147687_j65687229825758_2_alg».proof.Proof.Spec
import proofs.«147687_j65687229825758_2_alg».proof.Proof.HostSide
import proofs.«147687_j65687229825758_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel program ends at `result x w a b` of its arguments, and the reference at its
    last stage of arguments that agree with them, which is the same array. -/
theorem algebraic : Cert.algebraic_KernelIdeal_ReferenceIdeal := by
  intro m ρ m' ρ' _ hagree
  refine ⟨fun c => Cert.LoraSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
